-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x512 .f32) (main_arg1 : IVec S1600000 32) (main_arg2 : IVec S1600000 32) (main_arg3 : FVec F S1600000 .f32) (main_arg4 : FVec F S512x128 .f32) (main_arg5 : FVec F S128 .f32) (main_arg6 : FVec F S128x40 .f32) (main_arg7 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S4000x512 : Shape := ⟨2, ![4000, 512]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 47
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .bf16⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .bf16⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x40, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x40, .bf16⟩
  | .hbm, ⟨37, _⟩ => ⟨S1600000x40, .f32⟩
  | .hbm, ⟨38, _⟩ => ⟨S1600000x1, .f32⟩
  | .hbm, ⟨39, _⟩ => ⟨S1600000x40, .f32⟩
  | .hbm, ⟨40, _⟩ => ⟨S1600000x40, .f32⟩
  | .hbm, ⟨41, _⟩ => ⟨S_, .f32⟩
  | .hbm, ⟨42, _⟩ => ⟨S100000x40, .f32⟩
  | .hbm, ⟨43, _⟩ => ⟨S1600000x1, .i32⟩
  | .hbm, ⟨44, _⟩ => ⟨S100000x40, .f32⟩
  | .hbm, ⟨45, _⟩ => ⟨S1x40, .f32⟩
  | .hbm, ⟨46, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x40, .f32⟩
  | .local _ .vmem, ⟨9, _⟩ => ⟨S4000x40, .bf16⟩
  | .local _ .vmem, ⟨10, _⟩ => ⟨S4000x40, .bf16⟩
  | .local _ .vmem, ⟨11, _⟩ => ⟨S4000x40, .f32⟩
  | .local _ .vmem, ⟨12, _⟩ => ⟨S4000x40, .f32⟩
  | .local _ .vmem, ⟨13, _⟩ => ⟨S1x40, .f32⟩
  | .local _ .vmem, ⟨14, _⟩ => ⟨S4000x40, .f32⟩
  | .local _ .vmem, ⟨15, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x128 : S4000x128.ShapeCasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  packedbf16_S4000x40_S4000x40_0_0 : (Rect.unit (s := S4000x40) ![0, 0] S4000x40.size inb_S4000x40_S4000x40_0_0).PackedRows (EltTy.packing .bf16)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  shapeCasts_S4000x40_S4000x40 : S4000x40.ShapeCasts S4000x40
  reduces_S4000x40_S4000 : S4000x40.Reduces [1] S4000
  shapeCasts_S4000_S4000x1 : S4000.ShapeCasts S4000x1
  broadcasts_S4000x1_S4000x40 : S4000x1.Broadcasts S4000x40
  dot_S4000x512_S512x128_S4000x128_1_0_0_1_n_n_wf : DotDims.WF S4000x512 S512x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x40_S4000x40_1_0_0_1_n_n_wf : DotDims.WF S4000x128 S128x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .bf16 = 32 ∨ (Rect.block (s := S100000x40) S4000x40.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)

variable [Facts₀]

def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x40, .f32⟩
  | .hbm, ⟨41, _⟩ => ⟨S1600000x1, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The run of the idealized kernel's @main with its RESULT read.

  @main is five segments: the first matrix product's region, a stretch of host operations (the edge gather, the
  scaling by the edge weights, the scatter-add into the nodes), the second region (bias, rectifier, second matrix
  product), the same stretch of host operations again, and the last region (bias and the row-wise log-softmax).
  The frame's construction names the TensorCore's buffer contents at every segment boundary; the last of them,
  `W5`, is what every unscoped buffer holds when @main returns. Here the same run is stated with the result
  buffer read at `W5` beside the arguments, which end as launched. What `W5` holds at the result buffer is the
  subject of the modules that follow.
-/
import proofs.«119020_j47433618817355_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument as launched. -/
theorem run_result : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch tokens are owned as they are; no core is given anything else
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      -- at launch every unscoped buffer is held at the launch memory, the generator register at its state, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- the buffers held at the last boundary are read against the final state
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.Region0.lean ====
/-
  The first region, read as a value: at the ideal instance the array the first pallas_call writes is the matrix
  product of the two arrays it reads.

  The call walks 25 row blocks of 4000 rows. At block `t` the body loads rows 4000·t … 4000·t + 3999 of the left
  operand (all 512 columns) and the whole right operand, multiplies them into a zero accumulator, and stores the
  4000 × 128 result, which is written back to the same rows of the output. A change of float format is the identity
  on extended reals, so entry (p, q) of what block `t` stores is Σₖ x(4000·t + p, k) · w(k, q): entry
  (4000·t + p, q) of the whole product. The 25 blocks tile the output, so the output ends holding the product.
  Everything is stated at a parameter `V`, the TensorCore's buffer contents when the region is entered.
-/
import proofs.«119020_j47433618817355_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

/-- The product of a 100000 × 512 array with a 512 × 128 one, entry by entry, on the extended reals. -/
def product (x : S100000x512.Idx → EReal) (w : S512x128.Idx → EReal) : S100000x128.Idx → EReal :=
  fun i => ∑ k : Fin 512, x (ix2 (i 0) k) * w (ix2 k (i 1))

theorem zeroOffsets : (![0, 0] : Fin 2 → Nat) = fun _ => 0 := funext fun a => by fin_cases a <;> rfl

/-! ## What one block stores -/

/-- Entry (p, q) of the body's stored value: the sum over the 512 contracted columns of the loaded blocks' products. -/
theorem stored_at (x0 : Vec Ideal S4000x512 .f32) (x1 : Vec Ideal S512x128 .f32) (p : Fin 4000) (q : Fin 128) :
    k0_pay1 (F := Ideal) x0 x1 (ix2 p q) = ∑ k : Fin 512, x0 (ix2 p k) * x1 (ix2 k q) := by
  unfold k0_pay1
  show FloatOps.matmul dot_S4000x512_S512x128_S4000x128_1_0_0_1_n_n none (truncf .bf16 x0 bitsLt_bf16_f32) (truncf .bf16 x1 bitsLt_bf16_f32)
    (constant (F := Ideal) S4000x128 .f32 0x00000000#32) (ix2 p q) = _
  rw [Ideal.matmul_constant_zero_apply, ← Equiv.sum_comp (contrEquiv1 dot_S4000x512_S512x128_S4000x128_1_0_0_1_n_n 512 rfl rfl).symm]
  refine Finset.sum_congr rfl fun k _ => ?_
  have hk := contrEquiv1_symm_val dot_S4000x512_S512x128_S4000x128_1_0_0_1_n_n 512 rfl rfl k
  have el : dot_S4000x512_S512x128_S4000x128_1_0_0_1_n_n.lhsIdx (ix2 p q) ((contrEquiv1 dot_S4000x512_S512x128_S4000x128_1_0_0_1_n_n 512 rfl rfl).symm k) = ix2 p k :=
    funext fun a => Fin.ext (by
      match a with
      | ⟨0, _⟩ =>
        show (dot_S4000x512_S512x128_S4000x128_1_0_0_1_n_n.lhsIdx (ix2 p q) _ 0).val = p.val
        unfold DotDims.lhsIdx
        rw [dif_neg (show ¬(0 : Fin S4000x512.rank) ∈ dot_S4000x512_S512x128_S4000x128_1_0_0_1_n_n.lhsBatch by decide),
          dif_pos (show (0 : Fin S4000x512.rank) ∈ dot_S4000x512_S512x128_S4000x128_1_0_0_1_n_n.lhsNonContracting by decide)]
        rfl
      | ⟨1, _⟩ => exact (dot_S4000x512_S512x128_S4000x128_1_0_0_1_n_n.lhsIdx_val_of_single rfl (ix2 p q) _).trans hk)
  have er : dot_S4000x512_S512x128_S4000x128_1_0_0_1_n_n.rhsIdx (ix2 p q) ((contrEquiv1 dot_S4000x512_S512x128_S4000x128_1_0_0_1_n_n 512 rfl rfl).symm k) = ix2 k q :=
    funext fun a => Fin.ext (by
      match a with
      | ⟨0, _⟩ => exact (dot_S4000x512_S512x128_S4000x128_1_0_0_1_n_n.rhsIdx_val_of_single rfl (ix2 p q) _).trans hk
      | ⟨1, _⟩ =>
        show (dot_S4000x512_S512x128_S4000x128_1_0_0_1_n_n.rhsIdx (ix2 p q) _ 1).val = q.val
        unfold DotDims.rhsIdx
        rw [dif_neg (show ¬(1 : Fin S512x128.rank) ∈ dot_S4000x512_S512x128_S4000x128_1_0_0_1_n_n.rhsBatch by decide),
          dif_pos (show (1 : Fin S512x128.rank) ∈ dot_S4000x512_S512x128_S4000x128_1_0_0_1_n_n.rhsNonContracting by decide)]
        rfl)
  rw [el, er]
  rfl

/-! ## Which rows a block is -/

/-- The printed index maps over the 25 grid points: the left operand and the output are at row block `t`, column block
    0; the right operand is always its one whole block. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the product of the two operand arrays as the region finds them. -/
theorem written_block (c : Dev nD) (t : Fin cfg0.N) :
    (dat0 V c).flushed 2 t = ((cfg0.win 2).blk t).view.read (Elt Ideal) (product (V c main_arg0) (V c main_arg4)) := by
  show (cfg0.win 2).cut (grid0.coords t) ((dat0 V c).after 2 t) = _
  rw [after0_2]
  unfold out0_2
  rw [View.canon_unit_zero zeroOffsets]
  simp only [View.ld_unit_zero (S := S4000x512) zeroOffsets, View.ld_unit_zero (S := S512x128) zeroOffsets]
  obtain ⟨e00, e01, e10, e11, e20, e21⟩ := blockIndices t
  funext j
  obtain ⟨p, q, rfl⟩ : ∃ (p : Fin 4000) (q : Fin 128), j = ix2 p q := ⟨j 0, j 1, eq_ix2 j⟩
  refine (stored_at (iblk0 V c 0 t) (iblk0 V c 1 t) p q).trans ?_
  show _ = product (V c main_arg0) (V c main_arg4) (((cfg0.win 2).blk t).view.emb (ix2 p q))
  unfold product
  refine Finset.sum_congr rfl fun k _ => ?_
  have h0 : ((cfg0.win 0).blk t).view.emb (ix2 p k) = (ix2 ((((cfg0.win 2).blk t).view.emb (ix2 p q)) 0) k : S100000x512.Idx) := by
    funext a; apply Fin.ext
    match a with
    | ⟨0, _⟩ => show win0_0.index t (0 : Fin 2) * 4000 + 1 * p.val = win0_2.index t (0 : Fin 2) * 4000 + 1 * p.val; omega
    | ⟨1, _⟩ => show win0_0.index t (1 : Fin 2) * 512 + 1 * k.val = k.val; omega
  have h1 : ((cfg0.win 1).blk t).view.emb (ix2 k q) = (ix2 k ((((cfg0.win 2).blk t).view.emb (ix2 p q)) 1) : S512x128.Idx) := by
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  have r0 : iblk0 V c 0 t (ix2 p k) = V c main_arg0 (ix2 ((((cfg0.win 2).blk t).view.emb (ix2 p q)) 0) k) := by
    unfold iblk0; rw [View.read_apply]
    show (V c main_arg0 : S100000x512.Idx → EReal) _ = (V c main_arg0 : S100000x512.Idx → EReal) _
    exact congrArg (V c main_arg0 : S100000x512.Idx → EReal) h0
  have r1 : iblk0 V c 1 t (ix2 k q) = V c main_arg4 (ix2 k ((((cfg0.win 2).blk t).view.emb (ix2 p q)) 1)) := by
    unfold iblk0; rw [View.read_apply]
    show (V c main_arg4 : S512x128.Idx → EReal) _ = (V c main_arg4 : S512x128.Idx → EReal) _
    exact congrArg (V c main_arg4 : S512x128.Idx → EReal) h1
  exact congrArg₂ (fun a b : EReal => a * b) r0 r1

/-! ## The blocks tile the output -/

/-- An index of the output is in point `t`'s block iff each coordinate is in the block's range on its axis. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- Row `r` of the output is in the block of point `r / 4000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  let t : Fin cfg0.N := ⟨(i 0).val / 4000, by show _ < grid0.N; omega⟩
  obtain ⟨-, -, -, -, e20, e21⟩ := blockIndices t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The output array after the region: the product of the two operand arrays as the region finds them. -/
theorem output_eq (c : Dev nD) : (dat0 V c).arrAt 2 cfg0.N = product (V c main_arg0) (V c main_arg4) :=
  (dat0 V c).arrAt_eq_of_cover 2 (product (V c main_arg0) (V c main_arg4)) (fun t _ => written_block V c t) covered

end Cert.KernelIdeal.Region0

end
-- ==== Proof.RefStages.lean ====
/-
  The reference's result as one function of its eight arguments.

  The reference's @main is a line of 58 host operations; its run ends with every buffer at the fold of the operations'
  results over the launch contents. The fold is evaluated here in four stretches, each over whatever contents it
  starts from: the first layer (product, edge gather, scaling, scatter-add, bias), the rectifier, the second layer
  (the same on 40 columns), and the row-wise log-softmax. Chained, the result buffer holds
    log-softmax ( A · (max(A · (x · W1) + b1, 0) · W2) + b2 ),  A · s the gather-scale-scatter with the edge lists.
-/
import proofs.«119020_j47433618817355_2_alg».proof.Proof.RefRunP
import Idealize.ShloMosaic.Lib.StableHlo.Run
import Idealize.ShloMosaic.PureOps.Ideal

set_option maxRecDepth 16384

noncomputable section

namespace Cert.ReferenceIdeal.Stages

open Cert.ReferenceIdeal Cert.ReferenceIdeal.Gen Cert.ReferenceIdeal.ValueP
open Idealize.ShloMosaic Idealize.ShloMosaic.TcCoe Idealize.SL.Sem Idealize.ShloMosaic.StableHlo

/-! ## The stretches as functions -/

/-- The edge gather, the scaling by the edge weights and the scatter-add into the nodes, as the reference writes them
    (128 columns). -/
def aggregate128 (s : FVec Ideal S100000x128 .f32) (src dst : (⟨S1600000, .i32⟩ : BufTy).Contents (Elt Ideal)) (val : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (φ := .f32)
      (Host.gather gather_S100000x128_S1600000x1_S1600000x128_1_0_n_n_0_1_1128 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 val)))

/-- The edge gather, the scaling by the edge weights and the scatter-add into the nodes, as the reference writes them
    (40 columns). -/
def aggregate40 (s : FVec Ideal S100000x40 .f32) (src dst : (⟨S1600000, .i32⟩ : BufTy).Contents (Elt Ideal)) (val : FVec Ideal S1600000 .f32) :
    FVec Ideal S100000x40 .f32 :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (mulf (F := Ideal) (φ := .f32)
      (Host.gather gather_S100000x40_S1600000x1_S1600000x40_1_0_n_n_0_1_140 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 val)))

/-- The first layer before the rectifier: the aggregated product plus the bias broadcast down the rows. -/
def layer1 (x0 : FVec Ideal S100000x512 .f32) (x1 x2 : (⟨S1600000, .i32⟩ : BufTy).Contents (Elt Ideal)) (x3 : FVec Ideal S1600000 .f32)
    (x4 : FVec Ideal S512x128 .f32) (x5 : FVec Ideal S128 .f32) : FVec Ideal S100000x128 .f32 :=
  addf (F := Ideal) (φ := .f32) (aggregate128 (Host.dotGeneral dot_S100000x512_S512x128_S100000x128_1_0_0_1_n_n none x0 x4) x1 x2 x3)
    (broadcastInDim S100000x128 ![0, 1] bcast_S1x128_S100000x128_0_1 (broadcastInDim S1x128 ![1] bcast_S128_S1x128_1 x5))

/-- The rectifier: the maximum with the zero word, entry by entry. -/
def rectify (a : FVec Ideal S100000x128 .f32) : FVec Ideal S100000x128 .f32 :=
  maximumf (F := Ideal) (φ := .f32) a (broadcastInDim S100000x128 ![] bcast_S_S100000x128 (constant (F := Ideal) S_ .f32 0x00000000#32))

/-- The second layer: product with the second weight, aggregation, bias. -/
def layer2 (h : FVec Ideal S100000x128 .f32) (x1 x2 : (⟨S1600000, .i32⟩ : BufTy).Contents (Elt Ideal)) (x3 : FVec Ideal S1600000 .f32)
    (x6 : FVec Ideal S128x40 .f32) (x7 : FVec Ideal S40 .f32) : FVec Ideal S100000x40 .f32 :=
  addf (F := Ideal) (φ := .f32) (aggregate40 (Host.dotGeneral dot_S100000x128_S128x40_S100000x40_1_0_0_1_n_n none h x6) x1 x2 x3)
    (broadcastInDim S100000x40 ![0, 1] bcast_S1x40_S100000x40_0_1 (broadcastInDim S1x40 ![1] bcast_S40_S1x40_1 x7))

/-- A row's maximum as the reference takes it: the reduce from −∞'s word, then once more the maximum with that word. -/
def rowMaxima (z : FVec Ideal S100000x40 .f32) : FVec Ideal S100000 .f32 :=
  maximumf (F := Ideal) (φ := .f32) (broadcastInDim S100000 ![] bcast_S_S100000 (constant (F := Ideal) S_ .f32 0xFF800000#32))
    (Host.reduce (FloatOps.maximumf (F := Ideal) (φ := .f32)) z (constant (F := Ideal) S_ .f32 0xFF800000#32) reducesTo_S100000x40_S100000_d1 h_S_)

/-- The scores shifted by their row's maximum. -/
def shifted (z : FVec Ideal S100000x40 .f32) : FVec Ideal S100000x40 .f32 :=
  subf (F := Ideal) (φ := .f32) z (broadcastInDim S100000x40 ![0, 1] bcast_S100000x1_S100000x40_0_1 (broadcastInDim S100000x1 ![0] bcast_S100000_S100000x1_0 (rowMaxima z)))

/-- The row-wise log-softmax as the reference's outlined function computes it. -/
def logSoftmax (z : FVec Ideal S100000x40 .f32) : FVec Ideal S100000x40 .f32 :=
  subf (F := Ideal) (φ := .f32) (shifted z)
    (broadcastInDim S100000x40 ![0, 1] bcast_S100000x1_S100000x40_0_1
      (Host.log (F := Ideal) (φ := .f32) (broadcastInDim S100000x1 ![0] bcast_S100000_S100000x1_0
        (Host.reduceAdd (F := Ideal) (φ := .f32) (Host.exp (F := Ideal) (φ := .f32) (shifted z)) (constant (F := Ideal) S_ .f32 0x00000000#32) reducesTo_S100000x40_S100000_d1 h_S_))))

/-- The reference's result as a function of the eight argument arrays. -/
def result (x0 : FVec Ideal S100000x512 .f32) (x1 x2 : (⟨S1600000, .i32⟩ : BufTy).Contents (Elt Ideal)) (x3 : FVec Ideal S1600000 .f32)
    (x4 : FVec Ideal S512x128 .f32) (x5 : FVec Ideal S128 .f32) (x6 : FVec Ideal S128x40 .f32) (x7 : FVec Ideal S40 .f32) :
    FVec Ideal S100000x40 .f32 :=
  logSoftmax (layer2 (rectify (layer1 x0 x1 x2 x3 x4 x5)) x1 x2 x3 x6 x7)

/-! ## The fold, cut into stretches -/

theorem after_append (l₁ l₂ : List (HloOp τ sig (Elt Ideal))) (V : Valuation τ sig (Elt Ideal)) :
    after (l₁ ++ l₂) V = after l₂ (after l₁ V) := by
  induction l₁ generalizing V with
  | nil => rfl
  | cons a l ih => exact ih _

theorem after_take_drop (n : Nat) (l : List (HloOp τ sig (Elt Ideal))) (V : Valuation τ sig (Elt Ideal)) :
    after l V = after (l.drop n) (after (l.take n) V) := by
  rw [← after_append, List.take_append_drop]

/-- Contents written to a typed reference's buffer and read back are the contents. -/
theorem ofBuf_toBuf {T : BufTy} (x : TRef sig T) (v : T.Contents (Elt Ideal)) : x.ofBuf (x.toBuf v) = v := by
  obtain ⟨r, h, h2, h3⟩ := x
  subst h
  rfl

section Stretches
variable (V : Valuation τ sig (Elt Ideal))

/-- Operations 1–20: the first layer. -/
theorem first_layer : after ((ops (F := Ideal)).take 20) V (Proc.devRef .tc main_v16)
    = layer1 (V (Proc.devRef .tc main_arg0)) (V (Proc.devRef .tc main_arg1)) (V (Proc.devRef .tc main_arg2)) (V (Proc.devRef .tc main_arg3)) (V (Proc.devRef .tc main_arg4)) (V (Proc.devRef .tc main_arg5)) := by
  simp only [ops, List.take_succ_cons, List.take_zero]; after_results_simp; rfl
theorem first_keeps_arg1 : after ((ops (F := Ideal)).take 20) V (Proc.devRef .tc main_arg1) = V (Proc.devRef .tc main_arg1) := by
  simp only [ops, List.take_succ_cons, List.take_zero, List.drop_succ_cons, List.drop_zero]; after_results_simp
theorem first_keeps_arg2 : after ((ops (F := Ideal)).take 20) V (Proc.devRef .tc main_arg2) = V (Proc.devRef .tc main_arg2) := by
  simp only [ops, List.take_succ_cons, List.take_zero, List.drop_succ_cons, List.drop_zero]; after_results_simp
theorem first_keeps_arg3 : after ((ops (F := Ideal)).take 20) V (Proc.devRef .tc main_arg3) = V (Proc.devRef .tc main_arg3) := by
  simp only [ops, List.take_succ_cons, List.take_zero, List.drop_succ_cons, List.drop_zero]; after_results_simp
theorem first_keeps_arg6 : after ((ops (F := Ideal)).take 20) V (Proc.devRef .tc main_arg6) = V (Proc.devRef .tc main_arg6) := by
  simp only [ops, List.take_succ_cons, List.take_zero, List.drop_succ_cons, List.drop_zero]; after_results_simp
theorem first_keeps_arg7 : after ((ops (F := Ideal)).take 20) V (Proc.devRef .tc main_arg7) = V (Proc.devRef .tc main_arg7) := by
  simp only [ops, List.take_succ_cons, List.take_zero, List.drop_succ_cons, List.drop_zero]; after_results_simp

/-- Operations 21–23: the rectifier. -/
theorem rectifier : after (((ops (F := Ideal)).drop 20).take 3) V (Proc.devRef .tc main_v17) = rectify (V (Proc.devRef .tc main_v16)) := by
  simp only [ops, List.take_succ_cons, List.take_zero, List.drop_succ_cons, List.drop_zero]; after_results_simp; rfl
theorem rectifier_keeps_arg1 : after (((ops (F := Ideal)).drop 20).take 3) V (Proc.devRef .tc main_arg1) = V (Proc.devRef .tc main_arg1) := by
  simp only [ops, List.take_succ_cons, List.take_zero, List.drop_succ_cons, List.drop_zero]; after_results_simp
theorem rectifier_keeps_arg2 : after (((ops (F := Ideal)).drop 20).take 3) V (Proc.devRef .tc main_arg2) = V (Proc.devRef .tc main_arg2) := by
  simp only [ops, List.take_succ_cons, List.take_zero, List.drop_succ_cons, List.drop_zero]; after_results_simp
theorem rectifier_keeps_arg3 : after (((ops (F := Ideal)).drop 20).take 3) V (Proc.devRef .tc main_arg3) = V (Proc.devRef .tc main_arg3) := by
  simp only [ops, List.take_succ_cons, List.take_zero, List.drop_succ_cons, List.drop_zero]; after_results_simp
theorem rectifier_keeps_arg6 : after (((ops (F := Ideal)).drop 20).take 3) V (Proc.devRef .tc main_arg6) = V (Proc.devRef .tc main_arg6) := by
  simp only [ops, List.take_succ_cons, List.take_zero, List.drop_succ_cons, List.drop_zero]; after_results_simp
theorem rectifier_keeps_arg7 : after (((ops (F := Ideal)).drop 20).take 3) V (Proc.devRef .tc main_arg7) = V (Proc.devRef .tc main_arg7) := by
  simp only [ops, List.take_succ_cons, List.take_zero, List.drop_succ_cons, List.drop_zero]; after_results_simp

/-- Operations 24–43: the second layer. -/
theorem second_layer : after (((ops (F := Ideal)).drop 23).take 20) V (Proc.devRef .tc main_v34)
    = layer2 (V (Proc.devRef .tc main_v17)) (V (Proc.devRef .tc main_arg1)) (V (Proc.devRef .tc main_arg2)) (V (Proc.devRef .tc main_arg3)) (V (Proc.devRef .tc main_arg6)) (V (Proc.devRef .tc main_arg7)) := by
  simp only [ops, List.take_succ_cons, List.take_zero, List.drop_succ_cons, List.drop_zero]; after_results_simp; rfl

/-- Operations 44–58: the log-softmax. -/
theorem last_stretch : after ((ops (F := Ideal)).drop 43) V (Proc.devRef .tc main_v35) = logSoftmax (V (Proc.devRef .tc main_v34)) := by
  simp only [ops, List.drop_succ_cons, List.drop_zero]; after_results_simp
  simp only [ofBuf_toBuf]
  rfl

end Stretches

/-- The fold over all 58 operations, at the result buffer: the reference's function of the contents it starts from. -/
theorem fold_eq (V : Valuation τ sig (Elt Ideal)) : after (ops (F := Ideal)) V (Proc.devRef .tc main_v35)
    = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_take_drop 20 (ops (F := Ideal)) V, after_take_drop 3 ((ops (F := Ideal)).drop 20), List.drop_drop,
    after_take_drop 20 ((ops (F := Ideal)).drop 23), List.drop_drop]
  rw [last_stretch, second_layer, rectifier, first_layer]
  rw [rectifier_keeps_arg1, rectifier_keeps_arg2, rectifier_keeps_arg3, rectifier_keeps_arg6, rectifier_keeps_arg7,
    first_keeps_arg1, first_keeps_arg2, first_keeps_arg3, first_keeps_arg6, first_keeps_arg7]
  rfl

end Cert.ReferenceIdeal.Stages

end
-- ==== Proof.BridgeProducts.lean ====
/-
  The reference's two `dot_general`s read at an entry: each is the sum, over the contracted index, of the products of
  the left operand's row entries and the right operand's column entries. The first is therefore the whole-array
  product the kernel's first region's 25 row blocks tile.
-/
import proofs.«119020_j47433618817355_2_alg».proof.Proof.Region0
import proofs.«119020_j47433618817355_2_alg».proof.Proof.RefStages
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal (S100000x512 S512x128 S100000x128 S128x40 S100000x40 S128 S1x128 S40 S1x40 S100000 S100000x1 S_ S1600000)

/-! ## The two matrix products -/

/-- The reference's first `dot_general` at entry (p, q): the sum over the 512 contracted columns. -/
theorem dot1_at (l : S100000x512.Idx → EReal) (r : S512x128.Idx → EReal) (p : Fin 100000) (q : Fin 128) :
    Host.dotGeneral Cert.ReferenceIdeal.dot_S100000x512_S512x128_S100000x128_1_0_0_1_n_n none (F := Ideal) (φ₁ := .f32) (φ₂ := .f32) l r (ix2 p q) = ∑ k : Fin 512, l (ix2 p k) * r (ix2 k q) := by
  simp only [Host.dotGeneral]
  rw [Ideal.dotGeneral_apply, ← Equiv.sum_comp (contrEquiv1 Cert.ReferenceIdeal.dot_S100000x512_S512x128_S100000x128_1_0_0_1_n_n 512 rfl rfl).symm]
  refine Finset.sum_congr rfl fun k _ => ?_
  have hk := contrEquiv1_symm_val Cert.ReferenceIdeal.dot_S100000x512_S512x128_S100000x128_1_0_0_1_n_n 512 rfl rfl k
  have el : Cert.ReferenceIdeal.dot_S100000x512_S512x128_S100000x128_1_0_0_1_n_n.lhsIdx (ix2 p q) ((contrEquiv1 Cert.ReferenceIdeal.dot_S100000x512_S512x128_S100000x128_1_0_0_1_n_n 512 rfl rfl).symm k) = ix2 p k :=
    funext fun a => Fin.ext (by
      match a with
      | ⟨0, _⟩ =>
        show (Cert.ReferenceIdeal.dot_S100000x512_S512x128_S100000x128_1_0_0_1_n_n.lhsIdx (ix2 p q) _ 0).val = p.val
        unfold DotDims.lhsIdx
        rw [dif_neg (show ¬(0 : Fin S100000x512.rank) ∈ Cert.ReferenceIdeal.dot_S100000x512_S512x128_S100000x128_1_0_0_1_n_n.lhsBatch by decide),
          dif_pos (show (0 : Fin S100000x512.rank) ∈ Cert.ReferenceIdeal.dot_S100000x512_S512x128_S100000x128_1_0_0_1_n_n.lhsNonContracting by decide)]
        rfl
      | ⟨1, _⟩ => exact (Cert.ReferenceIdeal.dot_S100000x512_S512x128_S100000x128_1_0_0_1_n_n.lhsIdx_val_of_single rfl (ix2 p q) _).trans hk)
  have er : Cert.ReferenceIdeal.dot_S100000x512_S512x128_S100000x128_1_0_0_1_n_n.rhsIdx (ix2 p q) ((contrEquiv1 Cert.ReferenceIdeal.dot_S100000x512_S512x128_S100000x128_1_0_0_1_n_n 512 rfl rfl).symm k) = ix2 k q :=
    funext fun a => Fin.ext (by
      match a with
      | ⟨0, _⟩ => exact (Cert.ReferenceIdeal.dot_S100000x512_S512x128_S100000x128_1_0_0_1_n_n.rhsIdx_val_of_single rfl (ix2 p q) _).trans hk
      | ⟨1, _⟩ =>
        show (Cert.ReferenceIdeal.dot_S100000x512_S512x128_S100000x128_1_0_0_1_n_n.rhsIdx (ix2 p q) _ 1).val = q.val
        unfold DotDims.rhsIdx
        rw [dif_neg (show ¬(1 : Fin S512x128.rank) ∈ Cert.ReferenceIdeal.dot_S100000x512_S512x128_S100000x128_1_0_0_1_n_n.rhsBatch by decide),
          dif_pos (show (1 : Fin S512x128.rank) ∈ Cert.ReferenceIdeal.dot_S100000x512_S512x128_S100000x128_1_0_0_1_n_n.rhsNonContracting by decide)]
        rfl)
  rw [el, er]

/-- The reference's second `dot_general` at entry (p, q): the sum over the 128 contracted columns. -/
theorem dot2_at (l : S100000x128.Idx → EReal) (r : S128x40.Idx → EReal) (p : Fin 100000) (q : Fin 40) :
    Host.dotGeneral Cert.ReferenceIdeal.dot_S100000x128_S128x40_S100000x40_1_0_0_1_n_n none (F := Ideal) (φ₁ := .f32) (φ₂ := .f32) l r (ix2 p q) = ∑ k : Fin 128, l (ix2 p k) * r (ix2 k q) := by
  simp only [Host.dotGeneral]
  rw [Ideal.dotGeneral_apply, ← Equiv.sum_comp (contrEquiv1 Cert.ReferenceIdeal.dot_S100000x128_S128x40_S100000x40_1_0_0_1_n_n 128 rfl rfl).symm]
  refine Finset.sum_congr rfl fun k _ => ?_
  have hk := contrEquiv1_symm_val Cert.ReferenceIdeal.dot_S100000x128_S128x40_S100000x40_1_0_0_1_n_n 128 rfl rfl k
  have el : Cert.ReferenceIdeal.dot_S100000x128_S128x40_S100000x40_1_0_0_1_n_n.lhsIdx (ix2 p q) ((contrEquiv1 Cert.ReferenceIdeal.dot_S100000x128_S128x40_S100000x40_1_0_0_1_n_n 128 rfl rfl).symm k) = ix2 p k :=
    funext fun a => Fin.ext (by
      match a with
      | ⟨0, _⟩ =>
        show (Cert.ReferenceIdeal.dot_S100000x128_S128x40_S100000x40_1_0_0_1_n_n.lhsIdx (ix2 p q) _ 0).val = p.val
        unfold DotDims.lhsIdx
        rw [dif_neg (show ¬(0 : Fin S100000x128.rank) ∈ Cert.ReferenceIdeal.dot_S100000x128_S128x40_S100000x40_1_0_0_1_n_n.lhsBatch by decide),
          dif_pos (show (0 : Fin S100000x128.rank) ∈ Cert.ReferenceIdeal.dot_S100000x128_S128x40_S100000x40_1_0_0_1_n_n.lhsNonContracting by decide)]
        rfl
      | ⟨1, _⟩ => exact (Cert.ReferenceIdeal.dot_S100000x128_S128x40_S100000x40_1_0_0_1_n_n.lhsIdx_val_of_single rfl (ix2 p q) _).trans hk)
  have er : Cert.ReferenceIdeal.dot_S100000x128_S128x40_S100000x40_1_0_0_1_n_n.rhsIdx (ix2 p q) ((contrEquiv1 Cert.ReferenceIdeal.dot_S100000x128_S128x40_S100000x40_1_0_0_1_n_n 128 rfl rfl).symm k) = ix2 k q :=
    funext fun a => Fin.ext (by
      match a with
      | ⟨0, _⟩ => exact (Cert.ReferenceIdeal.dot_S100000x128_S128x40_S100000x40_1_0_0_1_n_n.rhsIdx_val_of_single rfl (ix2 p q) _).trans hk
      | ⟨1, _⟩ =>
        show (Cert.ReferenceIdeal.dot_S100000x128_S128x40_S100000x40_1_0_0_1_n_n.rhsIdx (ix2 p q) _ 1).val = q.val
        unfold DotDims.rhsIdx
        rw [dif_neg (show ¬(1 : Fin S128x40.rank) ∈ Cert.ReferenceIdeal.dot_S100000x128_S128x40_S100000x40_1_0_0_1_n_n.rhsBatch by decide),
          dif_pos (show (1 : Fin S128x40.rank) ∈ Cert.ReferenceIdeal.dot_S100000x128_S128x40_S100000x40_1_0_0_1_n_n.rhsNonContracting by decide)]
        rfl)
  rw [el, er]

/-- So the reference's first product is the whole-array product the kernel's first region tiles. -/
theorem product_eq (x0 : S100000x512.Idx → EReal) (x4 : S512x128.Idx → EReal) :
    Host.dotGeneral Cert.ReferenceIdeal.dot_S100000x512_S512x128_S100000x128_1_0_0_1_n_n none (F := Ideal) (φ₁ := .f32) (φ₂ := .f32) x0 x4
      = Cert.KernelIdeal.Region0.product x0 x4 := by
  funext i
  obtain ⟨p, q, rfl⟩ : ∃ (p : Fin 100000) (q : Fin 128), i = ix2 p q := ⟨i 0, i 1, eq_ix2 i⟩
  exact dot1_at x0 x4 p q

end Cert.Bridge

end
-- ==== Proof.Region1.lean ====
/-
  The second region, read as a value: bias, rectifier and the second matrix product.

  The call walks the same 25 row blocks of 4000 rows. At block `t` the body loads rows 4000·t … 4000·t + 3999 of the
  aggregated features (128 columns), the bias as a 1 × 128 row and the whole 128 × 40 weight; it adds the bias row to
  every row, takes the maximum with zero, multiplies by the weight into a zero accumulator and stores the 4000 × 40
  result to the same rows of the output. Entry (p, q) of what block `t` stores is
  Σₖ max(a(4000·t + p, k) + b(0, k), 0) · w(k, q), which is entry (4000·t + p, q) of one whole-array function of the
  three arrays; the blocks tile the output. Stated at a parameter `V`, the buffer contents at the region's entry.
-/
import proofs.«119020_j47433618817355_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

/-- Rows of `a` shifted by the bias row `b`, rectified, times `w`: entry by entry on the extended reals. The zero the
    rectifier compares with is kept as the float word both programs print. -/
def rectifiedProduct (a : S100000x128.Idx → EReal) (b : S1x128.Idx → EReal) (w : S128x40.Idx → EReal) : S100000x40.Idx → EReal :=
  fun i => ∑ k : Fin 128, max (a (ix2 (i 0) k) + b (ix2 0 k)) (Ideal.ofBits .f32 0x00000000#32) * w (ix2 k (i 1))

theorem zeroOffsets : (![0, 0] : Fin 2 → Nat) = fun _ => 0 := funext fun a => by fin_cases a <;> rfl

/-! ## What one block stores -/

/-- A 4000 × 128 by 128 × 40 product into the zero accumulator, at entry (p, q): the sum over the 128 contracted columns. -/
theorem product_at (l : FVec Ideal S4000x128 .bf16) (r : FVec Ideal S128x40 .bf16) (p : Fin 4000) (q : Fin 40) :
    FloatOps.matmul dot_S4000x128_S128x40_S4000x40_1_0_0_1_n_n none l r (constant (F := Ideal) S4000x40 .f32 0x00000000#32) (ix2 p q)
      = ∑ k : Fin 128, l (ix2 p k) * r (ix2 k q) := by
  rw [Ideal.matmul_constant_zero_apply, ← Equiv.sum_comp (contrEquiv1 dot_S4000x128_S128x40_S4000x40_1_0_0_1_n_n 128 rfl rfl).symm]
  refine Finset.sum_congr rfl fun k _ => ?_
  have hk := contrEquiv1_symm_val dot_S4000x128_S128x40_S4000x40_1_0_0_1_n_n 128 rfl rfl k
  have el : dot_S4000x128_S128x40_S4000x40_1_0_0_1_n_n.lhsIdx (ix2 p q) ((contrEquiv1 dot_S4000x128_S128x40_S4000x40_1_0_0_1_n_n 128 rfl rfl).symm k) = ix2 p k :=
    funext fun a => Fin.ext (by
      match a with
      | ⟨0, _⟩ =>
        show (dot_S4000x128_S128x40_S4000x40_1_0_0_1_n_n.lhsIdx (ix2 p q) _ 0).val = p.val
        unfold DotDims.lhsIdx
        rw [dif_neg (show ¬(0 : Fin S4000x128.rank) ∈ dot_S4000x128_S128x40_S4000x40_1_0_0_1_n_n.lhsBatch by decide),
          dif_pos (show (0 : Fin S4000x128.rank) ∈ dot_S4000x128_S128x40_S4000x40_1_0_0_1_n_n.lhsNonContracting by decide)]
        rfl
      | ⟨1, _⟩ => exact (dot_S4000x128_S128x40_S4000x40_1_0_0_1_n_n.lhsIdx_val_of_single rfl (ix2 p q) _).trans hk)
  have er : dot_S4000x128_S128x40_S4000x40_1_0_0_1_n_n.rhsIdx (ix2 p q) ((contrEquiv1 dot_S4000x128_S128x40_S4000x40_1_0_0_1_n_n 128 rfl rfl).symm k) = ix2 k q :=
    funext fun a => Fin.ext (by
      match a with
      | ⟨0, _⟩ => exact (dot_S4000x128_S128x40_S4000x40_1_0_0_1_n_n.rhsIdx_val_of_single rfl (ix2 p q) _).trans hk
      | ⟨1, _⟩ =>
        show (dot_S4000x128_S128x40_S4000x40_1_0_0_1_n_n.rhsIdx (ix2 p q) _ 1).val = q.val
        unfold DotDims.rhsIdx
        rw [dif_neg (show ¬(1 : Fin S128x40.rank) ∈ dot_S4000x128_S128x40_S4000x40_1_0_0_1_n_n.rhsBatch by decide),
          dif_pos (show (1 : Fin S128x40.rank) ∈ dot_S4000x128_S128x40_S4000x40_1_0_0_1_n_n.rhsNonContracting by decide)]
        rfl)
  rw [el, er]

/-- The bias row broadcast down the 4000 rows, read at (p, k): the row's entry k. -/
theorem biasRow_at (b : Vec Ideal S1x128 .f32) (p : Fin 4000) (k : Fin 128) :
    broadcastTo S4000x128 b broadcasts_S1x128_S4000x128 (ix2 p k) = b (ix2 0 k) :=
  broadcastTo_apply b broadcasts_S1x128_S4000x128 (ix2 p k) (ix2 0 k) fun a => by
    match a with
    | ⟨0, _⟩ => rfl
    | ⟨1, _⟩ => rfl

/-- Entry (p, q) of the body's stored value. -/
theorem stored_at (b : Vec Ideal S1x128 .f32) (a : Vec Ideal S4000x128 .f32) (w : Vec Ideal S128x40 .f32) (p : Fin 4000) (q : Fin 40) :
    k1_pay1 (F := Ideal) b a w (ix2 p q)
      = ∑ k : Fin 128, max (a (ix2 p k) + b (ix2 0 k)) (Ideal.ofBits .f32 0x00000000#32) * w (ix2 k q) := by
  unfold k1_pay1
  show FloatOps.matmul dot_S4000x128_S128x40_S4000x40_1_0_0_1_n_n none
      (truncf .bf16 (maximumf (addf (shapeCast S4000x128 a shapeCasts_S4000x128_S4000x128)
          (broadcastTo S4000x128 (shapeCast S1x128 (shapeCast S1x128 b shapeCasts_S1x128_S1x128) shapeCasts_S1x128_S1x128) broadcasts_S1x128_S4000x128))
        (broadcast S4000x128 (Scalar.ofBits (F := Ideal) .f32 0x00000000#32))) bitsLt_bf16_f32)
      (truncf .bf16 w bitsLt_bf16_f32) (constant (F := Ideal) S4000x40 .f32 0x00000000#32) (ix2 p q) = _
  rw [product_at, shapeCast_self, shapeCast_self, shapeCast_self]
  refine Finset.sum_congr rfl fun k _ => ?_
  show max (a (ix2 p k) + broadcastTo S4000x128 b broadcasts_S1x128_S4000x128 (ix2 p k)) (Ideal.ofBits .f32 0x00000000#32) * w (ix2 k q) = _
  rw [biasRow_at]

/-! ## Which rows a block is -/

/-- The printed index maps over the 25 grid points: the features and the output are at row block `t`; the bias row and
    the weight are always their one whole block. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the rectified product of the three arrays as the region finds them. -/
theorem written_block (c : Dev nD) (t : Fin cfg1.N) :
    (dat1 V c).flushed 3 t = ((cfg1.win 3).blk t).view.read (Elt Ideal) (rectifiedProduct (V c main_v14) (V c main_v15) (V c main_arg6)) := by
  show (cfg1.win 3).cut (grid1.coords t) ((dat1 V c).after 3 t) = _
  rw [after1_3]
  unfold out1_3
  rw [View.canon_unit_zero zeroOffsets]
  simp only [View.ld_unit_zero (S := S4000x128) zeroOffsets, View.ld_unit_zero (S := S1x128) zeroOffsets, View.ld_unit_zero (S := S128x40) zeroOffsets]
  obtain ⟨e00, e01, e10, e11, e20, e21, e30, e31⟩ := blockIndices t
  funext j
  obtain ⟨p, q, rfl⟩ : ∃ (p : Fin 4000) (q : Fin 40), j = ix2 p q := ⟨j 0, j 1, eq_ix2 j⟩
  refine (stored_at (iblk1 V c 1 t) (iblk1 V c 0 t) (iblk1 V c 2 t) p q).trans ?_
  show _ = rectifiedProduct (V c main_v14) (V c main_v15) (V c main_arg6) (((cfg1.win 3).blk t).view.emb (ix2 p q))
  unfold rectifiedProduct
  refine Finset.sum_congr rfl fun k _ => ?_
  have h0 : ((cfg1.win 0).blk t).view.emb (ix2 p k) = (ix2 ((((cfg1.win 3).blk t).view.emb (ix2 p q)) 0) k : S100000x128.Idx) := by
    funext a; apply Fin.ext
    match a with
    | ⟨0, _⟩ => show win1_0.index t (0 : Fin 2) * 4000 + 1 * p.val = win1_3.index t (0 : Fin 2) * 4000 + 1 * p.val; omega
    | ⟨1, _⟩ => show win1_0.index t (1 : Fin 2) * 128 + 1 * k.val = k.val; omega
  have h1 : ((cfg1.win 1).blk t).view.emb (ix2 (0 : Fin 1) k) = (ix2 (0 : Fin 1) k : S1x128.Idx) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k q) = (ix2 k ((((cfg1.win 3).blk t).view.emb (ix2 p q)) 1) : S128x40.Idx) := by
    funext a; apply Fin.ext
    match a with
    | ⟨0, _⟩ => show win1_2.index t (0 : Fin 2) * 128 + 1 * k.val = k.val; omega
    | ⟨1, _⟩ => show win1_2.index t (1 : Fin 2) * 40 + 1 * q.val = win1_3.index t (1 : Fin 2) * 40 + 1 * q.val; omega
  have r0 : iblk1 V c 0 t (ix2 p k) = V c main_v14 (ix2 ((((cfg1.win 3).blk t).view.emb (ix2 p q)) 0) k) := by
    unfold iblk1; rw [View.read_apply]
    show (V c main_v14 : S100000x128.Idx → EReal) _ = (V c main_v14 : S100000x128.Idx → EReal) _
    exact congrArg (V c main_v14 : S100000x128.Idx → EReal) h0
  have r1 : iblk1 V c 1 t (ix2 (0 : Fin 1) k) = V c main_v15 (ix2 (0 : Fin 1) k) := by
    unfold iblk1; rw [View.read_apply]
    show (V c main_v15 : S1x128.Idx → EReal) _ = (V c main_v15 : S1x128.Idx → EReal) _
    exact congrArg (V c main_v15 : S1x128.Idx → EReal) h1
  have r2 : iblk1 V c 2 t (ix2 k q) = V c main_arg6 (ix2 k ((((cfg1.win 3).blk t).view.emb (ix2 p q)) 1)) := by
    unfold iblk1; rw [View.read_apply]
    show (V c main_arg6 : S128x40.Idx → EReal) _ = (V c main_arg6 : S128x40.Idx → EReal) _
    exact congrArg (V c main_arg6 : S128x40.Idx → EReal) h2
  exact congrArg₂ (fun x y : EReal => x * y)
    (congrArg₂ (fun x y : EReal => max (x + y) (Ideal.ofBits .f32 0x00000000#32)) r0 r1) r2

/-! ## The blocks tile the output -/

/-- An index of the output is in point `t`'s block iff each coordinate is in the block's range on its axis. -/
theorem mem_block (t : Fin cfg1.N) (i : S100000x40.Idx) :
    i ∈ ((cfg1.win 3).blk t).view.set ↔ ∀ a : Fin 2, win1_3.index t a * S4000x40.size a ≤ (i a).val ∧ (i a).val < win1_3.index t a * S4000x40.size a + S4000x40.size a := by
  show i ∈ ((View.whole main_v16).slice (win1_3.rect t)).set ↔ _
  rw [View.set_slice_whole, Rect.mem_set_unit]
  exact Iff.rfl

/-- Row `r` of the output is in the block of point `r / 4000`. -/
theorem covered (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : grid1.N = 25 := N_1
  let t : Fin cfg1.N := ⟨(i 0).val / 4000, by show _ < grid1.N; omega⟩
  obtain ⟨-, -, -, -, -, -, e30, e31⟩ := blockIndices t
  have ht : t.val = (i 0).val / 4000 := rfl
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 40 ≤ (i 1).val ∧ (i 1).val < win1_3.index t (1 : Fin 2) * 40 + 40; omega

/-- The output array after the region: the rectified product of the three arrays as the region finds them. -/
theorem output_eq (c : Dev nD) : (dat1 V c).arrAt 3 cfg1.N = rectifiedProduct (V c main_v14) (V c main_v15) (V c main_arg6) :=
  (dat1 V c).arrAt_eq_of_cover 3 (rectifiedProduct (V c main_v14) (V c main_v15) (V c main_arg6)) (fun t _ => written_block V c t) covered

end Cert.KernelIdeal.Region1

end
-- ==== Proof.Region2.lean ====
/-
  The third region, read as a value: the bias and the row-wise log-softmax.

  The call walks the same 25 row blocks of 4000 rows. At block `t` the body loads rows 4000·t … 4000·t + 3999 of the
  aggregated class scores (40 columns) and the bias as a 1 × 40 row. With y(r, j) = z(r, j) + b(0, j) it stores, at
  (p, q), (y(p, q) − Mₚ) − log Σⱼ exp(y(p, j) − Mₚ), where Mₚ is the maximum of row p taken from −∞. Each entry
  depends on its own row only, so block `t` of the stored values is block `t` of one whole-array function, and the blocks
  tile the output. Stated at a parameter `V`, the buffer contents at the region's entry.
-/
import proofs.«119020_j47433618817355_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-- The maximum of a row of 40 extended reals, taken from the float word of −∞. -/
def rowMax (row : Fin 40 → EReal) : EReal := (Finset.univ : Finset (Fin 40)).fold max (Ideal.ofBits .f32 0xFF800000#32) row

/-- The log-softmax of a row of 40 extended reals at column `q`, shifted by the row's maximum as both programs do. -/
def logSoftmaxRow (row : Fin 40 → EReal) (q : Fin 40) : EReal :=
  (row q - rowMax row) - Ideal.log (∑ j : Fin 40, Ideal.exp (row j - rowMax row))

/-- The whole-array function: the bias row added to every row of `z`, then the log-softmax of each row. -/
def logSoftmaxRows (z : S100000x40.Idx → EReal) (b : S1x40.Idx → EReal) : S100000x40.Idx → EReal :=
  fun i => logSoftmaxRow (fun j => z (ix2 (i 0) j) + b (ix2 0 j)) (i 1)

theorem zeroOffsets : (![0, 0] : Fin 2 → Nat) = fun _ => 0 := funext fun a => by fin_cases a <;> rfl

/-! ## The body's operations read at an index -/

/-- The bias row broadcast down the 4000 rows, read at (p, j). -/
theorem biasRow_at {α : Type} (b : S1x40.Idx → α) (p : Fin 4000) (j : Fin 40) :
    broadcastTo S4000x40 b broadcasts_S1x40_S4000x40 (ix2 p j) = b (ix2 0 j) :=
  broadcastTo_apply b broadcasts_S1x40_S4000x40 (ix2 p j) (ix2 0 j) fun a => by
    match a with
    | ⟨0, _⟩ => rfl
    | ⟨1, _⟩ => rfl

/-- A column of 4000 values broadcast across the 40 columns, read at (p, q). -/
theorem spread_at {α : Type} (u : S4000x1.Idx → α) (p : Fin 4000) (q : Fin 40) :
    broadcastTo S4000x40 u broadcasts_S4000x1_S4000x40 (ix2 p q) = u (ix2 p 0) :=
  broadcastTo_apply u broadcasts_S4000x1_S4000x40 (ix2 p q) (ix2 p 0) fun a => by
    match a with
    | ⟨0, _⟩ => rfl
    | ⟨1, _⟩ => rfl

/-- 4000 values recast as a column, read at (p, 0). -/
theorem column_at {α : Type} (u : S4000.Idx → α) (p : Fin 4000) :
    shapeCast S4000x1 u shapeCasts_S4000_S4000x1 (ix2 p 0) = u (ix1 p) :=
  shapeCast_apply u shapeCasts_S4000_S4000x1 (ix2 p 0) (ix1 p) (by
    rw [Shape.rowMajor_val_one, Shape.rowMajor_val_two]
    show p.val = p.val * 1 + 0
    omega)

/-- Row p with column k put back is (p, k). -/
theorem lift_row (p : Fin 4000) (k : Fin (S4000x40.size 1)) :
    reduces_S4000x40_S4000.lift (ix1 p) k = ix2 p (⟨k.val, k.isLt⟩ : Fin 40) := by
  funext c; apply Fin.ext
  fin_cases c <;> rfl

/-- The lane maximum of a 4000 × 40 vector at row p: the fold of max over the row, from −∞'s word. -/
theorem laneMax_at (v : FVec Ideal S4000x40 .f32) (p : Fin 4000) (hφ : FKind.Formats .f32)
    (hacc : (0xFF800000#32 : BitVec 32) = FKind.neutral .maximumf .f32 hφ) :
    multiReduction .maximumf [1] S4000 v 0xFF800000#32 reduces_S4000x40_S4000 hφ hacc (ix1 p)
      = rowMax fun j => v (ix2 p j) := by
  refine (Ideal.multiReduction_maximumf_single v 0xFF800000#32 reduces_S4000x40_S4000 hφ hacc (ix1 p)).trans ?_
  unfold rowMax
  exact congrArg (fun f => Finset.fold max (Ideal.ofBits .f32 0xFF800000#32) f (Finset.univ : Finset (Fin 40)))
    (funext fun k => congrArg v (lift_row p k))

/-- The lane sum of a 4000 × 40 vector at row p: the sum over the row. -/
theorem laneSum_at (v : FVec Ideal S4000x40 .f32) (p : Fin 4000) (hφ : FKind.Formats .f32)
    (hacc : (0x00000000#32 : BitVec 32) = FKind.neutral .add .f32 hφ) :
    multiReduction .add [1] S4000 v 0x00000000#32 reduces_S4000x40_S4000 hφ hacc (ix1 p)
      = ∑ j : Fin 40, v (ix2 p j) := by
  refine (Ideal.multiReduction_add_single v 0x00000000#32 reduces_S4000x40_S4000 hφ hacc (ix1 p)).trans ?_
  exact Finset.sum_congr rfl fun k _ => congrArg v (lift_row p k)

theorem exp_at {s : Shape} (v : FVec Ideal s .f32) (i : s.Idx) : exp v i = Ideal.exp (v i) := rfl
theorem log_at {s : Shape} (v : FVec Ideal s .f32) (i : s.Idx) : log v i = Ideal.log (v i) := rfl

/-! ## What one block stores -/

/-- The body's operations after the bias, with the two reductions' side conditions as hypotheses: at (p, q) the
    log-softmax of row p of the biased block, at column q. -/
theorem stored_core (hφ : FKind.Formats .f32) (h1 : (0xFF800000#32 : BitVec 32) = FKind.neutral .maximumf .f32 hφ)
    (h2 : (0x00000000#32 : BitVec 32) = FKind.neutral .add .f32 hφ)
    (b : FVec Ideal S1x40 .f32) (z : FVec Ideal S4000x40 .f32) (p : Fin 4000) (q : Fin 40) :
    subf (subf (addf z (broadcastTo S4000x40 b broadcasts_S1x40_S4000x40)) (broadcastTo S4000x40 (shapeCast S4000x1 (multiReduction .maximumf [1] S4000 (addf z (broadcastTo S4000x40 b broadcasts_S1x40_S4000x40)) 0xFF800000#32 reduces_S4000x40_S4000 hφ h1) shapeCasts_S4000_S4000x1) broadcasts_S4000x1_S4000x40))
      (broadcastTo S4000x40 (log (shapeCast S4000x1 (multiReduction .add [1] S4000 (exp (subf (addf z (broadcastTo S4000x40 b broadcasts_S1x40_S4000x40)) (broadcastTo S4000x40 (shapeCast S4000x1 (multiReduction .maximumf [1] S4000 (addf z (broadcastTo S4000x40 b broadcasts_S1x40_S4000x40)) 0xFF800000#32 reduces_S4000x40_S4000 hφ h1) shapeCasts_S4000_S4000x1) broadcasts_S4000x1_S4000x40))) 0x00000000#32 reduces_S4000x40_S4000 hφ h2) shapeCasts_S4000_S4000x1)) broadcasts_S4000x1_S4000x40)
      (ix2 p q) = logSoftmaxRow (fun j => z (ix2 p j) + b (ix2 0 j)) q := by
  unfold logSoftmaxRow
  simp only [subf_apply, addf_apply, spread_at, column_at, log_at, biasRow_at]
  -- the row maximum, then the row's sum of exponentials
  have hM : multiReduction .maximumf [1] S4000 (addf z (broadcastTo S4000x40 b broadcasts_S1x40_S4000x40)) 0xFF800000#32 reduces_S4000x40_S4000 hφ h1 (ix1 p) = rowMax fun j => z (ix2 p j) + b (ix2 0 j) := by
    refine (laneMax_at _ p hφ h1).trans ?_
    refine congrArg rowMax (funext fun j => ?_)
    show z (ix2 p j) + broadcastTo S4000x40 b broadcasts_S1x40_S4000x40 (ix2 p j) = _
    rw [biasRow_at]
  have hS : multiReduction .add [1] S4000 (exp (subf (addf z (broadcastTo S4000x40 b broadcasts_S1x40_S4000x40)) (broadcastTo S4000x40 (shapeCast S4000x1 (multiReduction .maximumf [1] S4000 (addf z (broadcastTo S4000x40 b broadcasts_S1x40_S4000x40)) 0xFF800000#32 reduces_S4000x40_S4000 hφ h1) shapeCasts_S4000_S4000x1) broadcasts_S4000x1_S4000x40))) 0x00000000#32 reduces_S4000x40_S4000 hφ h2 (ix1 p)
      = ∑ x : Fin 40, Ideal.exp (z (ix2 p x) + b (ix2 0 x) - rowMax fun j => z (ix2 p j) + b (ix2 0 j)) := by
    refine (laneSum_at _ p hφ h2).trans ?_
    refine Finset.sum_congr rfl fun x _ => ?_
    show Ideal.exp ((z (ix2 p x) + broadcastTo S4000x40 b broadcasts_S1x40_S4000x40 (ix2 p x)) - (broadcastTo S4000x40 (shapeCast S4000x1 (multiReduction .maximumf [1] S4000 (addf z (broadcastTo S4000x40 b broadcasts_S1x40_S4000x40)) 0xFF800000#32 reduces_S4000x40_S4000 hφ h1) shapeCasts_S4000_S4000x1) broadcasts_S4000x1_S4000x40) (ix2 p x)) = _
    rw [biasRow_at, spread_at, column_at, hM]
  rw [hM, hS]

/-- Entry (p, q) of the body's stored value: the log-softmax of row p of the biased block, at column q. -/
theorem stored_at (b : Vec Ideal S1x40 .f32) (z : Vec Ideal S4000x40 .f32) (p : Fin 4000) (q : Fin 40) :
    k2_pay1 (F := Ideal) b z (ix2 p q) = logSoftmaxRow (fun j => z (ix2 p j) + b (ix2 0 j)) q := by
  unfold k2_pay1
  simp only [shapeCast_self]
  exact stored_core _ _ _ b z p q

/-! ## Which rows a block is -/

/-- The printed index maps over the 25 grid points: the scores and the output are at row block `t`; the bias row is
    always its one whole block. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point `t` writes back is block `t` of the row-wise log-softmax of the two arrays as the region finds them. -/
theorem written_block (c : Dev nD) (t : Fin cfg2.N) :
    (dat2 V c).flushed 2 t = ((cfg2.win 2).blk t).view.read (Elt Ideal) (logSoftmaxRows (V c main_v30) (V c main_v31)) := by
  show (cfg2.win 2).cut (grid2.coords t) ((dat2 V c).after 2 t) = _
  rw [after2_2]
  unfold out2_2
  rw [View.canon_unit_zero zeroOffsets]
  simp only [View.ld_unit_zero (S := S4000x40) zeroOffsets, View.ld_unit_zero (S := S1x40) zeroOffsets]
  obtain ⟨e00, e01, e10, e11, e20, e21⟩ := blockIndices t
  funext j
  obtain ⟨p, q, rfl⟩ : ∃ (p : Fin 4000) (q : Fin 40), j = ix2 p q := ⟨j 0, j 1, eq_ix2 j⟩
  refine (stored_at (iblk2 V c 1 t) (iblk2 V c 0 t) p q).trans ?_
  show _ = logSoftmaxRows (V c main_v30) (V c main_v31) (((cfg2.win 2).blk t).view.emb (ix2 p q))
  unfold logSoftmaxRows
  have hq : (((cfg2.win 2).blk t).view.emb (ix2 p q)) 1 = q := by
    apply Fin.ext
    show win2_2.index t (1 : Fin 2) * 40 + 1 * q.val = q.val; omega
  have r0 : ∀ k : Fin 40, iblk2 V c 0 t (ix2 p k) = V c main_v30 (ix2 ((((cfg2.win 2).blk t).view.emb (ix2 p q)) 0) k) := fun k => by
    have h0 : ((cfg2.win 0).blk t).view.emb (ix2 p k) = (ix2 ((((cfg2.win 2).blk t).view.emb (ix2 p q)) 0) k : S100000x40.Idx) := by
      funext a; apply Fin.ext
      match a with
      | ⟨0, _⟩ => show win2_0.index t (0 : Fin 2) * 4000 + 1 * p.val = win2_2.index t (0 : Fin 2) * 4000 + 1 * p.val; omega
      | ⟨1, _⟩ => show win2_0.index t (1 : Fin 2) * 40 + 1 * k.val = k.val; omega
    unfold iblk2; rw [View.read_apply]
    show (V c main_v30 : S100000x40.Idx → EReal) _ = (V c main_v30 : S100000x40.Idx → EReal) _
    exact congrArg (V c main_v30 : S100000x40.Idx → EReal) h0
  have r1 : ∀ k : Fin 40, iblk2 V c 1 t (ix2 (0 : Fin 1) k) = V c main_v31 (ix2 (0 : Fin 1) k) := fun k => by
    have h1 : ((cfg2.win 1).blk t).view.emb (ix2 (0 : Fin 1) k) = (ix2 (0 : Fin 1) k : S1x40.Idx) := by
      funext a; apply Fin.ext
      match a with
      | ⟨0, _⟩ => show win2_1.index t (0 : Fin 2) * 1 + 1 * 0 = 0; omega
      | ⟨1, _⟩ => show win2_1.index t (1 : Fin 2) * 40 + 1 * k.val = k.val; omega
    unfold iblk2; rw [View.read_apply]
    show (V c main_v31 : S1x40.Idx → EReal) _ = (V c main_v31 : S1x40.Idx → EReal) _
    exact congrArg (V c main_v31 : S1x40.Idx → EReal) h1
  rw [hq]
  exact congrArg (fun row => logSoftmaxRow row q) (funext fun k => congrArg₂ (fun x y : EReal => x + y) (r0 k) (r1 k))

/-! ## The blocks tile the output -/

/-- An index of the output is in point `t`'s block iff each coordinate is in the block's range on its axis. -/
theorem mem_block (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v32).slice (win2_2.rect t)).set ↔ _
  rw [View.set_slice_whole, Rect.mem_set_unit]
  exact Iff.rfl

/-- Row `r` of the output is in the block of point `r / 4000`. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : grid2.N = 25 := N_2
  let t : Fin cfg2.N := ⟨(i 0).val / 4000, by show _ < grid2.N; omega⟩
  obtain ⟨-, -, -, -, e20, e21⟩ := blockIndices t
  have ht : t.val = (i 0).val / 4000 := rfl
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 40 ≤ (i 1).val ∧ (i 1).val < win2_2.index t (1 : Fin 2) * 40 + 40; omega

/-- The output array after the region: the row-wise log-softmax of the two arrays as the region finds them. -/
theorem output_eq (c : Dev nD) : (dat2 V c).arrAt 2 cfg2.N = logSoftmaxRows (V c main_v30) (V c main_v31) :=
  (dat2 V c).arrAt_eq_of_cover 2 (logSoftmaxRows (V c main_v30) (V c main_v31)) (fun t _ => written_block V c t) covered

end Cert.KernelIdeal.Region2

end
-- ==== Proof.KernelValue.lean ====
/-
  The idealized kernel's result as one function of its eight arguments.

  Between the regions @main runs host operations: after the first product, the edge gather, the scaling by the edge
  weights and the scatter-add into the nodes (and the bias recast as a row); after the second region the same again
  on 40 columns. Reading each boundary's contents back through these, the result buffer ends holding
    log-softmax rows ( A · rectified-product ( A · (x · W1), b1, W2 ), b2 )
  where A · s stands for the gather-scale-scatter with the edge lists: each region's array by its region's value
  lemma, each host stretch by running its operations over the contents it starts from.
-/
import proofs.«119020_j47433618817355_2_alg».proof.Proof.Region0
import proofs.«119020_j47433618817355_2_alg».proof.Proof.Region1
import proofs.«119020_j47433618817355_2_alg».proof.Proof.Region2
import Idealize.ShloMosaic.Lib.StableHlo.Run

set_option maxRecDepth 16384

noncomputable section

namespace Cert.KernelIdeal.Composed

open Cert.KernelIdeal Cert.KernelIdeal.Gen
open Idealize.ShloMosaic Idealize.ShloMosaic.TcCoe Idealize.SL.Sem Idealize.ShloMosaic.StableHlo

/-- The host operations between two regions, as one function: gather the rows of `s` the edges' sources name (a negative
    source index counted from the end), scale each gathered row by its edge's weight, and add the rows up at the edges'
    destinations, starting from zeros: the sparse product of the adjacency with `s` (128 columns). The program widens the
    gathered rows' float format before scaling them; on extended reals that is the identity and is left out here. -/
def aggregate128 (s : (⟨S100000x128, .bf16⟩ : BufTy).Contents (Elt Ideal)) (src dst : (⟨S1600000, .i32⟩ : BufTy).Contents (Elt Ideal)) (val : (⟨S1600000, .f32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal) (φ := .f32)
      (Host.gather gather_S100000x128_S1600000x1_S1600000x128_1_0_n_n_0_1_1128 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 val)))

/-- The host operations between two regions, as one function: gather the rows of `s` the edges' sources name (a negative
    source index counted from the end), scale each gathered row by its edge's weight, and add the rows up at the edges'
    destinations, starting from zeros: the sparse product of the adjacency with `s` (40 columns). -/
def aggregate40 (s : (⟨S100000x40, .bf16⟩ : BufTy).Contents (Elt Ideal)) (src dst : (⟨S1600000, .i32⟩ : BufTy).Contents (Elt Ideal)) (val : (⟨S1600000, .f32⟩ : BufTy).Contents (Elt Ideal)) :
    (⟨S100000x40, .f32⟩ : BufTy).Contents (Elt Ideal) :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (mulf (F := Ideal) (φ := .f32)
      (Host.gather gather_S100000x40_S1600000x1_S1600000x40_1_0_n_n_0_1_140 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 val)))

/-- The first bias recast as a 1 × 128 row. -/
def biasRow128 (b : (⟨S128, .f32⟩ : BufTy).Contents (Elt Ideal)) : (⟨S1x128, .f32⟩ : BufTy).Contents (Elt Ideal) := shapeCast S1x128 b shapeCasts_S128_S1x128
/-- The second bias recast as a 1 × 40 row. -/
def biasRow40 (b : (⟨S40, .f32⟩ : BufTy).Contents (Elt Ideal)) : (⟨S1x40, .f32⟩ : BufTy).Contents (Elt Ideal) := shapeCast S1x40 b shapeCasts_S40_S1x40

/-- The kernel's result as a function of the eight argument arrays. -/
def result (x0 : (⟨S100000x512, .f32⟩ : BufTy).Contents (Elt Ideal)) (x1 x2 : (⟨S1600000, .i32⟩ : BufTy).Contents (Elt Ideal)) (x3 : (⟨S1600000, .f32⟩ : BufTy).Contents (Elt Ideal))
    (x4 : (⟨S512x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal)) :
    (⟨S100000x40, .f32⟩ : BufTy).Contents (Elt Ideal) :=
  Region2.logSoftmaxRows
    (aggregate40 (Region1.rectifiedProduct (aggregate128 (Region0.product x0 x4) x1 x2 x3) (biasRow128 x5) x6) x1 x2 x3)
    (biasRow40 x7)

/-! ## The two host stretches, over any contents they start from -/

/-- Widening the float format is the identity on extended reals. -/
theorem widen_eq {s : Shape} (x : FVec Ideal s .bf16) (h : FTy.bits .bf16 < FTy.bits .f32) : extf .f32 x h = x := rfl

section Stretches
variable (X : Valuation τ sig (Elt Ideal))

theorem stretch1_aggregate : after (hostOps1 (F := Ideal)) X (Proc.devRef .tc main_v14)
    = aggregate128 (X (Proc.devRef .tc main_v0)) (X (Proc.devRef .tc main_arg1)) (X (Proc.devRef .tc main_arg2)) (X (Proc.devRef .tc main_arg3)) := by
  after_results
  simp only [widen_eq]
  rfl
theorem stretch1_bias : after (hostOps1 (F := Ideal)) X (Proc.devRef .tc main_v15) = biasRow128 (X (Proc.devRef .tc main_arg5)) := by
  after_results; rfl
theorem stretch1_arg1 : after (hostOps1 (F := Ideal)) X (Proc.devRef .tc main_arg1) = X (Proc.devRef .tc main_arg1) := by after_results
theorem stretch1_arg2 : after (hostOps1 (F := Ideal)) X (Proc.devRef .tc main_arg2) = X (Proc.devRef .tc main_arg2) := by after_results
theorem stretch1_arg3 : after (hostOps1 (F := Ideal)) X (Proc.devRef .tc main_arg3) = X (Proc.devRef .tc main_arg3) := by after_results
theorem stretch1_arg6 : after (hostOps1 (F := Ideal)) X (Proc.devRef .tc main_arg6) = X (Proc.devRef .tc main_arg6) := by after_results
theorem stretch1_arg7 : after (hostOps1 (F := Ideal)) X (Proc.devRef .tc main_arg7) = X (Proc.devRef .tc main_arg7) := by after_results

theorem stretch2_aggregate : after (hostOps2 (F := Ideal)) X (Proc.devRef .tc main_v30)
    = aggregate40 (X (Proc.devRef .tc main_v16)) (X (Proc.devRef .tc main_arg1)) (X (Proc.devRef .tc main_arg2)) (X (Proc.devRef .tc main_arg3)) := by
  after_results
  simp only [widen_eq]
  rfl
theorem stretch2_bias : after (hostOps2 (F := Ideal)) X (Proc.devRef .tc main_v31) = biasRow40 (X (Proc.devRef .tc main_arg7)) := by
  after_results; rfl

end Stretches

/-! ## The boundaries' contents, read back to the launch memory -/

variable (m : (ℓ : Loc nD τ sig) → Buf (Elt Ideal) ℓ) (ρ : Dev nD → PrngReg)

/-- After the first region its output holds the product of the first two operand arguments. -/
theorem support1 (c : Dev nD) : W1 m ρ c (Proc.devRef .tc main_v0) = Region0.product (m ((c : Thread nD τ).loc main_arg0)) (m ((c : Thread nD τ).loc main_arg4)) :=
  (W1_arr m ρ c 2).trans (Region0.output_eq (V0 m ρ) c)

/-- An argument no region of the first two writes and no host operation writes is, at the second region's exit, as launched. -/
theorem W3_arg1 (c : Dev nD) : W3 m ρ c (Proc.devRef .tc main_arg1) = (m ((c : Thread nD τ).loc main_arg1)) :=
  (W3_of_ne m ρ c main_arg1 (by decide)).trans ((stretch1_arg1 (W1 m ρ c)).trans (W1_of_ne m ρ c main_arg1 (by decide)))
theorem W3_arg2 (c : Dev nD) : W3 m ρ c (Proc.devRef .tc main_arg2) = (m ((c : Thread nD τ).loc main_arg2)) :=
  (W3_of_ne m ρ c main_arg2 (by decide)).trans ((stretch1_arg2 (W1 m ρ c)).trans (W1_of_ne m ρ c main_arg2 (by decide)))
theorem W3_arg3 (c : Dev nD) : W3 m ρ c (Proc.devRef .tc main_arg3) = (m ((c : Thread nD τ).loc main_arg3)) :=
  (W3_of_ne m ρ c main_arg3 (by decide)).trans ((stretch1_arg3 (W1 m ρ c)).trans (W1_of_ne m ρ c main_arg3 (by decide)))
theorem W3_arg7 (c : Dev nD) : W3 m ρ c (Proc.devRef .tc main_arg7) = (m ((c : Thread nD τ).loc main_arg7)) :=
  (W3_of_ne m ρ c main_arg7 (by decide)).trans ((stretch1_arg7 (W1 m ρ c)).trans (W1_of_ne m ρ c main_arg7 (by decide)))

/-- What the second region finds in its three input arrays. -/
theorem entry2_features (c : Dev nD) : V2 m ρ c main_v14
    = aggregate128 (Region0.product (m ((c : Thread nD τ).loc main_arg0)) (m ((c : Thread nD τ).loc main_arg4))) (m ((c : Thread nD τ).loc main_arg1)) (m ((c : Thread nD τ).loc main_arg2)) (m ((c : Thread nD τ).loc main_arg3)) := by
  refine (stretch1_aggregate (W1 m ρ c)).trans ?_
  rw [support1 m ρ c, W1_of_ne m ρ c main_arg1 (by decide), W1_of_ne m ρ c main_arg2 (by decide), W1_of_ne m ρ c main_arg3 (by decide)]
theorem entry2_bias (c : Dev nD) : V2 m ρ c main_v15 = biasRow128 (m ((c : Thread nD τ).loc main_arg5)) := by
  refine (stretch1_bias (W1 m ρ c)).trans ?_
  rw [W1_of_ne m ρ c main_arg5 (by decide)]
theorem entry2_weight (c : Dev nD) : V2 m ρ c main_arg6 = (m ((c : Thread nD τ).loc main_arg6)) :=
  (stretch1_arg6 (W1 m ρ c)).trans (W1_of_ne m ρ c main_arg6 (by decide))

/-- After the second region its output holds the rectified product of what it found. -/
theorem support2 (c : Dev nD) : W3 m ρ c (Proc.devRef .tc main_v16)
    = Region1.rectifiedProduct
        (aggregate128 (Region0.product (m ((c : Thread nD τ).loc main_arg0)) (m ((c : Thread nD τ).loc main_arg4))) (m ((c : Thread nD τ).loc main_arg1)) (m ((c : Thread nD τ).loc main_arg2)) (m ((c : Thread nD τ).loc main_arg3)))
        (biasRow128 (m ((c : Thread nD τ).loc main_arg5))) (m ((c : Thread nD τ).loc main_arg6)) := by
  refine ((W3_arr m ρ c 3).trans (Region1.output_eq (V2 m ρ) c)).trans ?_
  rw [entry2_features m ρ c, entry2_bias m ρ c, entry2_weight m ρ c]

/-- The result buffer at the last boundary: the kernel's function of the arguments as launched. -/
theorem result_eq (c : Dev nD) : W5 m ρ c (Proc.devRef .tc main_v32)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W5_arr m ρ c 2).trans (Region2.output_eq (V4 m ρ) c)).trans ?_
  have h30 : V4 m ρ c main_v30 = aggregate40 (Region1.rectifiedProduct
        (aggregate128 (Region0.product (m ((c : Thread nD τ).loc main_arg0)) (m ((c : Thread nD τ).loc main_arg4))) (m ((c : Thread nD τ).loc main_arg1)) (m ((c : Thread nD τ).loc main_arg2)) (m ((c : Thread nD τ).loc main_arg3)))
        (biasRow128 (m ((c : Thread nD τ).loc main_arg5))) (m ((c : Thread nD τ).loc main_arg6))) (m ((c : Thread nD τ).loc main_arg1)) (m ((c : Thread nD τ).loc main_arg2)) (m ((c : Thread nD τ).loc main_arg3)) := by
    refine (stretch2_aggregate (W3 m ρ c)).trans ?_
    rw [support2 m ρ c, W3_arg1 m ρ c, W3_arg2 m ρ c, W3_arg3 m ρ c]
  have h31 : V4 m ρ c main_v31 = biasRow40 (m ((c : Thread nD τ).loc main_arg7)) := by
    refine (stretch2_bias (W3 m ρ c)).trans ?_
    rw [W3_arg7 m ρ c]
  rw [h30, h31]
  rfl

end Cert.KernelIdeal.Composed

end
-- ==== Proof.BridgeAggregate.lean ====
/-
  The edge gather, the scaling by the edge weights and the scatter-add are the same host operations in both programs
  (the kernel's extra widening of the gathered rows' float format is the identity on extended reals and was already
  dropped where its host operations were run): the two functions are one, whatever the table gathered from.
-/
import proofs.«119020_j47433618817355_2_alg».proof.Proof.KernelValue
import proofs.«119020_j47433618817355_2_alg».proof.Proof.RefStages
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal (S100000x512 S512x128 S100000x128 S128x40 S100000x40 S128 S1x128 S40 S1x40 S100000 S100000x1 S_ S1600000)

/-! ## The gather-scale-scatter -/

/-- The reference's three host operations and the kernel's are the same operations on the same shapes. -/
theorem aggregate128_eq (s : S100000x128.Idx → EReal) (src dst : S1600000.Idx → BitVec 32) (val : S1600000.Idx → EReal) :
    Cert.ReferenceIdeal.Stages.aggregate128 s src dst val = Cert.KernelIdeal.Composed.aggregate128 s src dst val := rfl
theorem aggregate40_eq (s : S100000x40.Idx → EReal) (src dst : S1600000.Idx → BitVec 32) (val : S1600000.Idx → EReal) :
    Cert.ReferenceIdeal.Stages.aggregate40 s src dst val = Cert.KernelIdeal.Composed.aggregate40 s src dst val := rfl

end Cert.Bridge

end
-- ==== Proof.BridgeLayer2.lean ====
/-
  The second layer's product. The reference adds the first bias broadcast to a row and then down the rows, takes the
  maximum with the zero word and multiplies by the second weight in one `dot_general`; entry by entry that is the
  whole-array function the kernel's second region's row blocks tile, whose bias row is the bias recast as 1 × 128.
-/
import proofs.«119020_j47433618817355_2_alg».proof.Proof.BridgeProducts
import proofs.«119020_j47433618817355_2_alg».proof.Proof.KernelValue
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal (S100000x512 S512x128 S100000x128 S128x40 S100000x40 S128 S1x128 S40 S1x40 S100000 S100000x1 S_ S1600000)

/-! ## The first bias -/

/-- The first bias broadcast to a row and down the rows, at (r, k), is the bias recast as a row at (0, k). -/
theorem bias128_at (b : S128.Idx → EReal) (r : Fin 100000) (k : Fin 128) :
    broadcastInDim S100000x128 ![0, 1] Cert.ReferenceIdeal.Facts₀.bcast_S1x128_S100000x128_0_1 (broadcastInDim S1x128 ![1] Cert.ReferenceIdeal.Facts₀.bcast_S128_S1x128_1 b) (ix2 r k)
      = Cert.KernelIdeal.Composed.biasRow128 b (ix2 0 k) := by
  rw [broadcastInDim_apply _ _ _ (ix2 r k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]
  unfold Cert.KernelIdeal.Composed.biasRow128
  refine (shapeCast_apply b _ (ix2 (0 : Fin 1) k) (ix1 k) ?_).symm
  rw [Shape.rowMajor_val_one, Shape.rowMajor_val_two]
  show k.val = 0 * 128 + k.val
  omega

/-! ## The second layer's product of the rectified first layer -/

/-- A scalar broadcast to the whole array, at any entry, is the scalar. -/
theorem zeros128_at (j : S100000x128.Idx) :
    broadcastInDim S100000x128 ![] Cert.ReferenceIdeal.Facts₀.bcast_S_S100000x128 (constant (F := Ideal) S_ .f32 0x00000000#32) j = Ideal.ofBits .f32 0x00000000#32 := by
  rw [broadcastInDim_apply _ _ _ j ix0 (fun a => a.elim0)]
  rfl

theorem rectifiedProduct_eq (a : S100000x128.Idx → EReal) (b : S128.Idx → EReal) (w : S128x40.Idx → EReal) :
    Host.dotGeneral Cert.ReferenceIdeal.dot_S100000x128_S128x40_S100000x40_1_0_0_1_n_n none (F := Ideal) (φ₁ := .f32) (φ₂ := .f32)
        (Cert.ReferenceIdeal.Stages.rectify (addf a
          (broadcastInDim S100000x128 ![0, 1] Cert.ReferenceIdeal.Facts₀.bcast_S1x128_S100000x128_0_1 (broadcastInDim S1x128 ![1] Cert.ReferenceIdeal.Facts₀.bcast_S128_S1x128_1 b)))) w
      = Cert.KernelIdeal.Region1.rectifiedProduct a (Cert.KernelIdeal.Composed.biasRow128 b) w := by
  funext i
  obtain ⟨p, q, rfl⟩ : ∃ (p : Fin 100000) (q : Fin 40), i = ix2 p q := ⟨i 0, i 1, eq_ix2 i⟩
  rw [dot2_at]
  show _ = ∑ k : Fin 128, max (a (ix2 p k) + Cert.KernelIdeal.Composed.biasRow128 b (ix2 0 k)) (Ideal.ofBits .f32 0x00000000#32) * w (ix2 k q)
  refine Finset.sum_congr rfl fun k _ => ?_
  refine congrArg (fun x : EReal => x * w (ix2 k q)) ?_
  unfold Cert.ReferenceIdeal.Stages.rectify
  show max (a (ix2 p k) + broadcastInDim S100000x128 ![0, 1] Cert.ReferenceIdeal.Facts₀.bcast_S1x128_S100000x128_0_1 (broadcastInDim S1x128 ![1] Cert.ReferenceIdeal.Facts₀.bcast_S128_S1x128_1 b) (ix2 p k))
      (broadcastInDim S100000x128 ![] Cert.ReferenceIdeal.Facts₀.bcast_S_S100000x128 (constant (F := Ideal) S_ .f32 0x00000000#32) (ix2 p k)) = _
  rw [bias128_at, zeros128_at]

end Cert.Bridge

end
-- ==== Proof.BridgeSoftmax.lean ====
/-
  The log-softmax. The reference's outlined function reduces each row to its maximum from −∞, takes the maximum with
  −∞ once more (no change on extended reals), subtracts it, exponentiates, sums each row from the zero word (the
  plain sum), takes the logarithm and subtracts. Entry by entry that is the row-wise function the kernel's third
  region's row blocks tile, on the scores plus the bias recast as a 1 × 40 row.
-/
import proofs.«119020_j47433618817355_2_alg».proof.Proof.KernelValue
import proofs.«119020_j47433618817355_2_alg».proof.Proof.RefStages
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal (S100000x512 S512x128 S100000x128 S128x40 S100000x40 S128 S1x128 S40 S1x40 S100000 S100000x1 S_ S1600000)

/-! ## The second bias -/

/-- The second bias broadcast to a row and down the rows, at (r, k), is the bias recast as a row at (0, k). -/
theorem bias40_at (b : FVec Ideal S40 .f32) (r : Fin 100000) (k : Fin 40) :
    broadcastInDim S100000x40 ![0, 1] Cert.ReferenceIdeal.Facts₀.bcast_S1x40_S100000x40_0_1 (broadcastInDim S1x40 ![1] Cert.ReferenceIdeal.Facts₀.bcast_S40_S1x40_1 b) (ix2 r k)
      = Cert.KernelIdeal.Composed.biasRow40 b (ix2 0 k) := by
  rw [broadcastInDim_apply _ _ _ (ix2 r k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]
  unfold Cert.KernelIdeal.Composed.biasRow40
  refine (shapeCast_apply b _ (ix2 (0 : Fin 1) k) (ix1 k) ?_).symm
  rw [Shape.rowMajor_val_one, Shape.rowMajor_val_two]
  show k.val = 0 * 40 + k.val
  omega

/-! ## The reference's operations read at an index -/

/-- Row r with column k put back is (r, k). -/
theorem lift_row (h : S100000x40.Reduces [1] S100000) (r : Fin 100000) (k : Fin (S100000x40.size 1)) :
    h.lift (ix1 r) k = ix2 r (⟨k.val, k.isLt⟩ : Fin 40) := by
  funext c; apply Fin.ext
  fin_cases c <;> rfl

/-- The maximum with −∞'s word changes nothing. -/
theorem max_negInf (y : EReal) : max (Ideal.ofBits .f32 0xFF800000#32) y = y := by
  simp [Ideal.ofBits, Ideal.ieee]

theorem hostLog_at {s : Shape} (x : FVec Ideal s .f32) (i : s.Idx) : Host.log x i = Ideal.log (x i) := rfl
theorem hostExp_at {s : Shape} (x : FVec Ideal s .f32) (i : s.Idx) : Host.exp x i = Ideal.exp (x i) := rfl

/-- The reference's reduce with a maximum body over the columns, at row r: the fold of max over the row from −∞'s word. -/
theorem reduceMax_at (y : FVec Ideal S100000x40 .f32) (r : Fin 100000) :
    Host.reduce (FloatOps.maximumf (F := Ideal) (φ := .f32)) y (constant (F := Ideal) S_ .f32 0xFF800000#32)
        Cert.ReferenceIdeal.Facts₀.reducesTo_S100000x40_S100000_d1 Cert.ReferenceIdeal.Facts₀.h_S_ (ix1 r)
      = Cert.KernelIdeal.Region2.rowMax fun j => y (ix2 r j) := by
  rw [Host.reduce_eq_fold_single (FloatOps.maximumf (F := Ideal) (φ := .f32)) y _ Cert.ReferenceIdeal.Facts₀.reducesTo_S100000x40_S100000_d1 (by decide) Cert.ReferenceIdeal.Facts₀.h_S_ (ix1 r),
    constant_apply]
  unfold Cert.KernelIdeal.Region2.rowMax
  exact congrArg (fun f => Finset.fold max (Ideal.ofBits .f32 0xFF800000#32) f (Finset.univ : Finset (Fin 40)))
    (funext fun k => congrArg y (lift_row _ r k))

/-- The reference's row maxima at row r. -/
theorem rowMaxima_at (y : FVec Ideal S100000x40 .f32) (r : Fin 100000) :
    Cert.ReferenceIdeal.Stages.rowMaxima y (ix1 r) = Cert.KernelIdeal.Region2.rowMax fun j => y (ix2 r j) := by
  unfold Cert.ReferenceIdeal.Stages.rowMaxima
  rw [maximumf_apply, reduceMax_at, broadcastInDim_apply _ _ _ (ix1 r) ix0 (fun a => a.elim0), constant_apply, max_negInf]

/-- A column of row values broadcast across the 40 columns, at (r, q). -/
theorem spread_at (u : FVec Ideal S100000 .f32) (r : Fin 100000) (q : Fin 40) :
    broadcastInDim S100000x40 ![0, 1] Cert.ReferenceIdeal.Facts₀.bcast_S100000x1_S100000x40_0_1 (broadcastInDim S100000x1 ![0] Cert.ReferenceIdeal.Facts₀.bcast_S100000_S100000x1_0 u) (ix2 r q) = u (ix1 r) := by
  rw [broadcastInDim_apply _ _ _ (ix2 r q) (ix2 r (0 : Fin 1)) (fun a => by match a with | ⟨0, _⟩ => rfl | ⟨1, _⟩ => rfl),
    broadcastInDim_apply _ _ _ (ix2 r (0 : Fin 1)) (ix1 r) (fun a => by match a with | ⟨0, _⟩ => rfl)]

/-- The same with the logarithm taken on the column. -/
theorem spreadLog_at (u : FVec Ideal S100000 .f32) (r : Fin 100000) (q : Fin 40) :
    broadcastInDim S100000x40 ![0, 1] Cert.ReferenceIdeal.Facts₀.bcast_S100000x1_S100000x40_0_1
        (Host.log (F := Ideal) (φ := .f32) (broadcastInDim S100000x1 ![0] Cert.ReferenceIdeal.Facts₀.bcast_S100000_S100000x1_0 u)) (ix2 r q) = Ideal.log (u (ix1 r)) := by
  rw [broadcastInDim_apply _ _ _ (ix2 r q) (ix2 r (0 : Fin 1)) (fun a => by match a with | ⟨0, _⟩ => rfl | ⟨1, _⟩ => rfl),
    hostLog_at, broadcastInDim_apply _ _ _ (ix2 r (0 : Fin 1)) (ix1 r) (fun a => by match a with | ⟨0, _⟩ => rfl)]

/-- The scores shifted by their row's maximum, at (r, j). -/
theorem shifted_at (y : FVec Ideal S100000x40 .f32) (r : Fin 100000) (j : Fin 40) :
    Cert.ReferenceIdeal.Stages.shifted y (ix2 r j) = y (ix2 r j) - Cert.KernelIdeal.Region2.rowMax fun j => y (ix2 r j) := by
  unfold Cert.ReferenceIdeal.Stages.shifted
  rw [subf_apply, spread_at, rowMaxima_at]

/-- The reference's row sums at row r: started from the zero word, the plain sum. -/
theorem rowSum_at (e : FVec Ideal S100000x40 .f32) (r : Fin 100000) :
    Host.reduceAdd (F := Ideal) (φ := .f32) e (constant (F := Ideal) S_ .f32 0x00000000#32) Cert.ReferenceIdeal.Facts₀.reducesTo_S100000x40_S100000_d1 Cert.ReferenceIdeal.Facts₀.h_S_ (ix1 r)
      = ∑ j : Fin 40, e (ix2 r j) := by
  simp only [Host.reduceAdd, Ideal.hostReduceAdd_def]
  rw [Ideal.hostReduceAdd_single Cert.ReferenceIdeal.Facts₀.reducesTo_S100000x40_S100000_d1 (by decide), constant_apply, Ideal.ofBits_zero_f32, zero_add]
  exact Finset.sum_congr rfl fun k _ => congrArg e (lift_row _ r k)

/-! ## The log-softmax of any scores -/

theorem logSoftmax_at (y : FVec Ideal S100000x40 .f32) (r : Fin 100000) (q : Fin 40) :
    Cert.ReferenceIdeal.Stages.logSoftmax y (ix2 r q) = Cert.KernelIdeal.Region2.logSoftmaxRow (fun j => y (ix2 r j)) q := by
  unfold Cert.ReferenceIdeal.Stages.logSoftmax Cert.KernelIdeal.Region2.logSoftmaxRow
  rw [subf_apply, spreadLog_at, rowSum_at, shifted_at]
  simp only [hostExp_at, shifted_at]

/-- On the scores plus the bias: the kernel's third region's function. -/
theorem logSoftmax_eq (z : FVec Ideal S100000x40 .f32) (b : FVec Ideal S40 .f32) :
    Cert.ReferenceIdeal.Stages.logSoftmax (addf z
        (broadcastInDim S100000x40 ![0, 1] Cert.ReferenceIdeal.Facts₀.bcast_S1x40_S100000x40_0_1 (broadcastInDim S1x40 ![1] Cert.ReferenceIdeal.Facts₀.bcast_S40_S1x40_1 b)))
      = Cert.KernelIdeal.Region2.logSoftmaxRows z (Cert.KernelIdeal.Composed.biasRow40 b) := by
  funext i
  obtain ⟨r, q, rfl⟩ : ∃ (r : Fin 100000) (q : Fin 40), i = ix2 r q := ⟨i 0, i 1, eq_ix2 i⟩
  rw [logSoftmax_at]
  exact congrArg (fun row => Cert.KernelIdeal.Region2.logSoftmaxRow row q) (funext fun j => by rw [addf_apply, bias40_at])

end Cert.Bridge

end
-- ==== Proof.Bridge.lean ====
/-
  The two results are one function of the eight arguments, at the ideal instance.

  Stretch by stretch: the reference's `dot_general` is, entry by entry, the sum the kernel's row blocks tile; its
  gather-scale-scatter is the kernel's host operations; its bias broadcast twice and the kernel's bias recast as a row
  read the same entry; its rectifier is the kernel's; and in its log-softmax the row maximum taken from −∞ is not
  changed by one more maximum with −∞, and a sum started from the zero word is the sum. No law beyond these is used:
  in particular nothing needs the inputs to be finite.
-/
import proofs.«119020_j47433618817355_2_alg».proof.Proof.BridgeProducts
import proofs.«119020_j47433618817355_2_alg».proof.Proof.BridgeAggregate
import proofs.«119020_j47433618817355_2_alg».proof.Proof.BridgeLayer2
import proofs.«119020_j47433618817355_2_alg».proof.Proof.BridgeSoftmax
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.TcCoe Idealize.SL.Sem Idealize.ShloMosaic.ValueIdx
open Cert.ReferenceIdeal (S100000x512 S512x128 S100000x128 S128x40 S100000x40 S128 S1x128 S40 S1x40 S100000 S100000x1 S_ S1600000)

/-! ## The whole -/

/-- The reference's result and the kernel's are one function of the eight argument arrays. -/
theorem result_eq (x0 : FVec Ideal S100000x512 .f32) (x1 x2 : S1600000.Idx → BitVec 32) (x3 : FVec Ideal S1600000 .f32)
    (x4 : FVec Ideal S512x128 .f32) (x5 : FVec Ideal S128 .f32) (x6 : FVec Ideal S128x40 .f32) (x7 : FVec Ideal S40 .f32) :
    Cert.ReferenceIdeal.Stages.result x0 x1 x2 x3 x4 x5 x6 x7 = Cert.KernelIdeal.Composed.result x0 x1 x2 x3 x4 x5 x6 x7 := by
  unfold Cert.ReferenceIdeal.Stages.result Cert.ReferenceIdeal.Stages.layer2 Cert.ReferenceIdeal.Stages.layer1 Cert.KernelIdeal.Composed.result
  rw [product_eq, aggregate128_eq, rectifiedProduct_eq, aggregate40_eq, logSoftmax_eq]

end Cert.Bridge

end
-- ==== Proof.lean ====
/-
  A two-layer graph convolution with a row-wise log-softmax: the kernel against its jnp reference, at the ideal
  instance.

  Both programs compute  log-softmax( A · (max(A · (x · W1) + b1, 0) · W2) + b2 ), where A · s gathers the rows of s
  the edges' sources name, scales each by its edge's weight and adds them up at the edges' destinations. The kernel
  runs the two matrix products and the log-softmax as three pallas_calls over 25 blocks of 4000 rows each and keeps
  the gather and the scatter as host operations between them; the reference is a line of host operations.

  The frames of the two kernel programs are the generated ones; the reference's is its run with the result dropped.
  The ideal pass rewrote nothing, so there is nothing to preserve. For the value claim the kernel's run is read at
  its last boundary (KernelRun), each region's output array is one whole-array function of what the region finds
  (Region0–2: a block's stored value entry by entry, the block reads, the tiling), the host operations between the
  regions are run over those contents (KernelValue), the reference's 58 operations are folded in four stretches
  (RefStages), and the two resulting functions of the eight arguments are equal stretch by stretch (Bridge): a matrix
  product into a zero accumulator is the product's sum, a change of float format is the identity, a maximum with −∞
  changes nothing, a sum started from zero is the sum. None of these needs the inputs to be finite.
-/
import proofs.«119020_j47433618817355_2_alg».proof.Defs
import proofs.«119020_j47433618817355_2_alg».proof.Proof.Gen.Kernel
import proofs.«119020_j47433618817355_2_alg».proof.Proof.Gen.Kernel.Skeleton
import proofs.«119020_j47433618817355_2_alg».proof.Proof.Gen.Kernel.Launch
import proofs.«119020_j47433618817355_2_alg».proof.Proof.Gen.Kernel.Points
import proofs.«119020_j47433618817355_2_alg».proof.Proof.Gen.Kernel.Frame
import proofs.«119020_j47433618817355_2_alg».proof.Proof.Gen.KernelIdeal
import proofs.«119020_j47433618817355_2_alg».proof.Proof.Gen.KernelIdeal.Skeleton
import proofs.«119020_j47433618817355_2_alg».proof.Proof.Gen.KernelIdeal.Launch
import proofs.«119020_j47433618817355_2_alg».proof.Proof.Gen.KernelIdeal.Points
import proofs.«119020_j47433618817355_2_alg».proof.Proof.Gen.KernelIdeal.Frame
import proofs.«119020_j47433618817355_2_alg».proof.Proof.Gen.ReferenceIdeal
import proofs.«119020_j47433618817355_2_alg».proof.Proof.Gen.Pre_finite_inputs
import proofs.«119020_j47433618817355_2_alg».proof.Proof.KernelRun
import proofs.«119020_j47433618817355_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs run, and both result arrays end at the one
    function of the arguments. -/
theorem algebraic : Cert.algebraic_KernelIdeal_ReferenceIdeal := by
  intro m ρ m' ρ' _ hagree
  refine ⟨fun c => Cert.KernelIdeal.Composed.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Composed.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.Stages.fold_eq _).trans ?_
    obtain ⟨e0, e1, e2, e3, e4, e5, e6, e7⟩ := hagree c
    show Cert.ReferenceIdeal.Stages.result
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
    rw [e0, e1, e2, e3, e4, e5, e6, e7]
    exact Cert.Bridge.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
